-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_0)) (v2 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_v10_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x8192 : Shape := ⟨2, ![2048, 8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_arg4 : FVec F S2048x8192 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S2048x8192 .f32 := Host.absf main_arg4
  let main_cst_6 : FVec F S_ .f32 := constant S_ .f32 0x7F800000#32
  let main_v20 : FVec F S2048x8192 .f32 := broadcastInDim S2048x8192 ![] bcast_S_S2048x8192 main_cst_6
  let main_v21 : IVec S2048x8192 1 := cmpf .olt main_v19 main_v20
  let main_c_7 : IVec S_ 1 := constantI S_ 1 1#1
  let main_v22 : IVec S_ 1 := (fun x v => Host.reduce IntOp.andi x v reducesTo_S2048x8192_S_d0_1 h_S_) main_v21 main_c_7
  let main_v23 : IVec S_ 1 := andi main_v18 main_v22
  main_v23

def fn {F : FTy → Type} [FloatOps F] (main_arg0 : FVec F S4096x2048 .f32) (main_arg1 : FVec F S4096x2048 .f32) (main_arg2 : FVec F S4096x2048 .f32) (main_arg3 : FVec F S2048x8192 .f32) (main_arg4 : FVec F S2048x8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_v13 main_v16
-- ==== Kernel.lean ====
abbrev S4096x2048 : Shape := ⟨2, ![4096, 2048]⟩
abbrev S2048x8192 : Shape := ⟨2, ![2048, 8192]⟩
abbrev S2048x4x8x256 : Shape := ⟨4, ![2048, 4, 8, 256]⟩
abbrev S2048x8x4x256 : Shape := ⟨4, ![2048, 8, 4, 256]⟩
abbrev S1024x512 : Shape := ⟨2, ![1024, 512]⟩
abbrev S512x1024 : Shape := ⟨2, ![512, 1024]⟩
abbrev S1024x256 : Shape := ⟨2, ![1024, 256]⟩
abbrev S1024x1024 : Shape := ⟨2, ![1024, 1024]⟩

abbrev nBuf : Space → Nat
  | .hbm => 17
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x8192, .f32⟩
  | .hbm, ⟨4, _⟩ => ⟨S2048x8192, .f32⟩
  | .hbm, ⟨5, _⟩ => ⟨S4096x2048, .bf16⟩
  | .hbm, ⟨6, _⟩ => ⟨S4096x2048, .bf16⟩
  | .hbm, ⟨7, _⟩ => ⟨S2048x4x8x256, .f32⟩
  | .hbm, ⟨8, _⟩ => ⟨S2048x8x4x256, .f32⟩
  | .hbm, ⟨9, _⟩ => ⟨S2048x8192, .f32⟩
  | .hbm, ⟨10, _⟩ => ⟨S2048x8192, .bf16⟩
  | .hbm, ⟨11, _⟩ => ⟨S2048x4x8x256, .f32⟩
  | .hbm, ⟨12, _⟩ => ⟨S2048x8x4x256, .f32⟩
  | .hbm, ⟨13, _⟩ => ⟨S2048x8192, .f32⟩
  | .hbm, ⟨14, _⟩ => ⟨S2048x8192, .bf16⟩
  | .hbm, ⟨15, _⟩ => ⟨S4096x2048, .f32⟩
  | .hbm, ⟨16, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  bitsLt_bf16_f32 : FTy.bits .bf16 < FTy.bits .f32
  shapeCasts_S2048x8192_S2048x4x8x256 : S2048x8192.ShapeCasts S2048x4x8x256
  transposes_S2048x4x8x256_S2048x8x4x256_0_2_1_3 : S2048x4x8x256.Transposes [0, 2, 1, 3] S2048x8x4x256
  shapeCasts_S2048x8x4x256_S2048x8192 : S2048x8x4x256.ShapeCasts S2048x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x256_0_0 : ∀ a, (![0, 0] : Fin 2 → Nat) a + S1024x256.size a ≤ S1024x1024.size a
  h_S1024x256 : 0 < S1024x256.numel
  inb_S1024x1024_S1024x256_0_768 : ∀ a, (![0, 768] : Fin 2 → Nat) a + S1024x256.size a ≤ S1024x1024.size a
  inb_S1024x1024_S1024x256_0_256 : ∀ a, (![0, 256] : Fin 2 → Nat) a + S1024x256.size a ≤ S1024x1024.size a
  inb_S1024x1024_S1024x256_0_512 : ∀ a, (![0, 512] : Fin 2 → Nat) a + S1024x256.size a ≤ S1024x1024.size a
  inb_S1024x256_S1024x256_0_0 : ∀ a, (![0, 0] : Fin 2 → Nat) a + S1024x256.size a ≤ S1024x256.size a
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x2048.size a
  hwx0_0 : ∀ i : grid0.Coords, EltTy.bits .bf16 = 32 ∨ (Rect.block (s := S4096x2048) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x2048.size a
  hwx0_1 : ∀ i : grid0.Coords, EltTy.bits .bf16 = 32 ∨ (Rect.block (s := S4096x2048) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x8192.size a
  hwx0_2 : ∀ i : grid0.Coords, EltTy.bits .bf16 = 32 ∨ (Rect.block (s := S2048x8192) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x8192.size a
  hwx0_3 : ∀ i : grid0.Coords, EltTy.bits .bf16 = 32 ∨ (Rect.block (s := S2048x8192) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S4096x2048.size a
  hwx0_4 : ∀ i : grid0.Coords, EltTy.bits .f32 = 32 ∨ (Rect.block (s := S4096x2048) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S4096x2048.size a
  hwx0_5 : ∀ i : grid0.Coords, EltTy.bits .f32 = 32 ∨ (Rect.block (s := S4096x2048) S1024x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S4096x2048.size a
  hwx0_6 : ∀ i : grid0.Coords, EltTy.bits .f32 = 32 ∨ (Rect.block (s := S4096x2048) S1024x256.size (cc0_transform_6 i) (hinb0_6 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x8192, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_7 : Ref sig .tc := ⟨.hbm, 44, rfl⟩
abbrev main_v21 : Ref sig .tc := ⟨.hbm, 45, rfl⟩
abbrev main_v22 : Ref sig .tc := ⟨.hbm, 46, rfl⟩
abbrev main_cst_8 : Ref sig .tc := ⟨.hbm, 47, rfl⟩
abbrev main_v23 : Ref sig .tc := ⟨.hbm, 48, rfl⟩
abbrev main_v24 : Ref sig .tc := ⟨.hbm, 49, rfl⟩
abbrev main_cst_9 : Ref sig .tc := ⟨.hbm, 50, rfl⟩
abbrev main_cst_10 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩

abbrev nD : Nat := 1
abbrev τ : Topo := Topo.v7x

variable {F : FTy → Type} [FloatOps F]

class Facts₀ : Prop where
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.CellSpec.lean ====
/-
  One step of an LSTM cell as a function of its five argument arrays, index by index, over the extended reals.

  For a batch row r and a column n of the gate-major axis (n = 2048·g + u: gate g, unit u) the pre-activation is
      z r n = Σ_d x r d · W d n  +  Σ_d h r d · R d n            (d over the 2048 features),
  the gates are the hard sigmoid  hs z = min 1 (max 0 (0.2·z + 0.5))  of the pre-activations of gates 0 (input),
  1 (forget) and 3 (output), and with the candidate's pre-activation (gate 2)
      c' r u = hs (z r (1,u)) · c r u + hs (z r (0,u)) · tanh (z r (2,u)),      h' r u = hs (z r (3,u)) · tanh (c' r u).
  The four float words 0.2, 0.5, 0, 1 are kept as words: both programs carry the same ones, and they are never evaluated.

  Two facts about sums join a blocked accumulation to these whole sums. A sum over the 2048 features is the sum of
  its four stretches of 512 (`prodSum_split`). And an accumulator that starts at 0 and, stretch after stretch, adds
  first the x·W part and then the h·R part ends at (all x·W parts) + (all h·R parts) (`accUpTo_three`): addition of
  extended reals is commutative and associative, which is all this uses — no entry need be finite.
-/
import Idealize.ShloMosaic.PureOps.Ideal
import Idealize.ShloMosaic.PureOps.Ideal.Laws
import Idealize.ShloMosaic.Lib.ValueIdx

noncomputable section

namespace Cert.CellSpec

open Idealize.ShloMosaic Idealize.ShloMosaic.ValueIdx

/-- An a × b array of extended reals. -/
abbrev Mat (a b : Nat) : Type := (⟨2, ![a, b]⟩ : Shape).Idx → EReal

/-- Feature `512·k + j`: feature `j` of the `k`-th stretch of 512. -/
def feat (k : Fin 4) (j : Fin 512) : Fin 2048 :=
  ⟨512 * k.val + j.val, by have := k.isLt; have := j.isLt; omega⟩

/-- Column `2048·g + u` of the gate-major axis: unit `u` of gate `g`. -/
def gcol (g : Fin 4) (u : Fin 2048) : Fin 8192 :=
  ⟨2048 * g.val + u.val, by have := g.isLt; have := u.isLt; omega⟩

/-- Row `r` of `x` against column `n` of `W`, over all 2048 features. -/
def prodSum (x : Mat 4096 2048) (W : Mat 2048 8192) (r : Fin 4096) (n : Fin 8192) : EReal :=
  ∑ d : Fin 2048, x (ix2 r d) * W (ix2 d n)

/-- The same over the `k`-th stretch of 512 features only. -/
def partSum (x : Mat 4096 2048) (W : Mat 2048 8192) (r : Fin 4096) (n : Fin 8192) (k : Fin 4) : EReal :=
  ∑ j : Fin 512, x (ix2 r (feat k j)) * W (ix2 (feat k j) n)

/-- The pre-activation: the input path plus the recurrent path. -/
def pre (x h : Mat 4096 2048) (W R : Mat 2048 8192) (r : Fin 4096) (n : Fin 8192) : EReal :=
  prodSum x W r n + prodSum h R r n

/-- The hard sigmoid `min 1 (max 0 (0.2·z + 0.5))`, its four constants as float words. -/
def hsig (z : EReal) : EReal :=
  min (Ideal.ofBits .f32 0x3F800000#32)
    (max (Ideal.ofBits .f32 0x00000000#32) (Ideal.ofBits .f32 0x3E4CCCCD#32 * z + Ideal.ofBits .f32 0x3F000000#32))

/-- The new cell state from the input, forget and candidate pre-activations and the old cell state. -/
def cellOf (zi zf zc cprev : EReal) : EReal := hsig zf * cprev + hsig zi * Ideal.tanh zc

/-- The new hidden state: the output gate times tanh of the new cell state. -/
def hiddenOf (zi zf zc zo cprev : EReal) : EReal := hsig zo * Ideal.tanh (cellOf zi zf zc cprev)

/-- The new cell state, as an array. -/
def newCell (x h c : Mat 4096 2048) (W R : Mat 2048 8192) : Mat 4096 2048 := fun i =>
  cellOf (pre x h W R (i 0) (gcol 0 (i 1))) (pre x h W R (i 0) (gcol 1 (i 1))) (pre x h W R (i 0) (gcol 2 (i 1))) (c i)

/-- The new hidden state, as an array. -/
def newHidden (x h c : Mat 4096 2048) (W R : Mat 2048 8192) : Mat 4096 2048 := fun i =>
  hiddenOf (pre x h W R (i 0) (gcol 0 (i 1))) (pre x h W R (i 0) (gcol 1 (i 1))) (pre x h W R (i 0) (gcol 2 (i 1)))
    (pre x h W R (i 0) (gcol 3 (i 1))) (c i)

/-! ## A sum over the features is the sum of its four stretches -/

theorem prodSum_split (x : Mat 4096 2048) (W : Mat 2048 8192) (r : Fin 4096) (n : Fin 8192) :
    prodSum x W r n = partSum x W r n 0 + partSum x W r n 1 + partSum x W r n 2 + partSum x W r n 3 := by
  have hsum : ∑ k : Fin 4, partSum x W r n k = prodSum x W r n := by
    unfold partSum prodSum
    rw [← Fintype.sum_prod_type']
    refine Fintype.sum_equiv (finProdFinEquiv (m := 4) (n := 512)) _ (fun d : Fin 2048 => x (ix2 r d) * W (ix2 d n)) (fun p => ?_)
    have e : feat p.1 p.2 = (finProdFinEquiv p : Fin 2048) :=
      Fin.ext (by show 512 * p.1.val + p.2.val = p.2.val + 512 * p.1.val; omega)
    rw [e]
  rw [← hsum, Fin.sum_univ_four]

/-! ## The interleaved accumulator -/

/-- The accumulator after stretch `k`: from 0, each stretch adds its input-path part `a`, then its recurrent-path part `b`. -/
def accUpTo (a b : ℕ → EReal) : ℕ → EReal
  | 0 => (0 + a 0) + b 0
  | k + 1 => (accUpTo a b k + a (k + 1)) + b (k + 1)

theorem accUpTo_three (a b : ℕ → EReal) :
    accUpTo a b 3 = (a 0 + a 1 + a 2 + a 3) + (b 0 + b 1 + b 2 + b 3) := by
  simp only [accUpTo, zero_add]
  abel

end Cert.CellSpec

end
-- ==== Proof.CellPieces.lean ====
/-
  What one run of the kernel body leaves behind, as values.

  The body keeps a 1024 × 1024 accumulator between grid points. At every point it adds to it the product of the
  point's input block with its weight block, then the product of the hidden-state block with the recurrent weight
  block (`accStep`); at the first point of a run of four it starts from the zero fill instead of from what the point
  before left. At the last point of the run it reads the four column blocks of 256 of the updated accumulator — the
  input, forget, candidate and output pre-activations of 256 units — and stores the new cell state and the new hidden
  state of those units.

  Each statement below reads the stores that one case of the body was found to make back as one value: the last
  store through the whole buffer decides its contents, a load through the rectangle of the last store reads that
  store's payload, and a load of a column block of the accumulator reads the last store's payload at those columns.
-/
import proofs.«145058_j75797582840479_2_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem

namespace Cert.KernelIdeal.Cell

open Cert.KernelIdeal Cert.KernelIdeal.Gen Idealize.ShloMosaic.ValueIdx

variable {F : FTy → Type} [FloatOps F]

theorem hz : (![0, 0] : Fin 2 → Nat) = fun _ => 0 := funext fun a => by fin_cases a <;> rfl

/-- Column `256·g + q` of the accumulator: column `q` of its `g`-th block of 256. -/
def gateCol (g : Fin 4) (q : Fin 256) : Fin 1024 := ⟨256 * g.val + q.val, by have := g.isLt; have := q.isLt; omega⟩

/-- The `g`-th block of 256 columns of a 1024 × 1024 array. -/
def colBlock (g : Fin 4) (A : Vec F S1024x1024 .f32) : Vec F S1024x256 .f32 :=
  fun j => A (ix2 (j 0) (gateCol g (j 1)))

/-- One point's update of the accumulator: add the input-path product, then the recurrent-path product. -/
def accStep (acc : Vec F S1024x1024 .f32) (x0 x1 : Vec F S1024x512 .bf16) (x2 x3 : Vec F S512x1024 .bf16) :
    Vec F S1024x1024 .f32 := k0_pay3 (k0_pay2 acc x0 x2) x1 x3

section
variable (c : Dev nD) (i : grid0.Coords)
  (a3 : Memref sig .tc .vmem S1024x512 .bf16) (h3 : a3.IsWhole) (a4 : Memref sig .tc .vmem S1024x512 .bf16) (h4 : a4.IsWhole)
  (a5 : Memref sig .tc .vmem S512x1024 .bf16) (h5 : a5.IsWhole) (a6 : Memref sig .tc .vmem S512x1024 .bf16) (h6 : a6.IsWhole)
  (a7 : Memref sig .tc .vmem S1024x256 .f32) (h7 : a7.IsWhole) (a8 : Memref sig .tc .vmem S1024x256 .f32) (h8 : a8.IsWhole)
  (a9 : Memref sig .tc .vmem S1024x256 .f32) (h9 : a9.IsWhole) (a10 : Memref sig .tc .vmem S1024x1024 .f32) (h10 : a10.IsWhole)
  (x0 x1 : Vec F S1024x512 .bf16) (x2 x3 : Vec F S512x1024 .bf16) (x4 : Vec F S1024x256 .f32)

/-- FIRST POINT OF A RUN (the reset): the accumulator is left at the update of the zero fill. -/
theorem scratch_first (hc0 : cond0_0 i) (hc1 : ¬cond0_1 i) :
    sout0_A_0 c i a3 h3 a4 h4 a5 h5 a6 h6 a7 h7 a8 h8 a9 h9 a10 h10 hc0 hc1 x0 x1 x2 x3 x4 = accStep k0_pay1 x0 x1 x2 x3 := by
  unfold sout0_A_0
  rw [View.read_writes_eq_canon _ _ _ (scover0_A_0 c i a3 h3 a4 h4 a5 h5 a6 h6 a7 h7 a8 h8 a9 h9 a10 h10 hc0 hc1 x0 x1 x2 x3 x4)]
  unfold kernelRun0_A
  dsimp only
  sl_unfold_words
  rw [View.canon_cons_unit_zero (S := S1024x1024) hz]
  simp only [View.readCov_cons_toLoadRect]
  simp only [View.readAt_eq_ld, h3.read_unread, h4.read_unread, h5.read_unread, h6.read_unread,
    View.ld_unit_zero (S := S1024x512) hz, View.ld_unit_zero (S := S512x1024) hz]
  rfl

/-- A MIDDLE POINT: the accumulator is left at the update of what the point before left. -/
theorem scratch_middle (hc0 : ¬cond0_0 i) (hc1 : ¬cond0_1 i) (xs0 : Vec F S1024x1024 .f32) :
    sout0_B_0 c i a3 h3 a4 h4 a5 h5 a6 h6 a7 h7 a8 h8 a9 h9 a10 h10 hc0 hc1 x0 x1 x2 x3 x4 xs0 = accStep xs0 x0 x1 x2 x3 := by
  unfold sout0_B_0
  rw [View.read_writes_eq_canon _ _ _ (scover0_B_0 c i a3 h3 a4 h4 a5 h5 a6 h6 a7 h7 a8 h8 a9 h9 a10 h10 hc0 hc1 x0 x1 x2 x3 x4 xs0)]
  unfold kernelRun0_B
  dsimp only
  sl_unfold_words
  rw [View.canon_cons_unit_zero (S := S1024x1024) hz]
  simp only [View.readCov_cons_toLoadRect]
  simp only [View.readAt_eq_ld, h10.read_unread, h3.read_unread, h4.read_unread, h5.read_unread, h6.read_unread,
    View.ld_unit_zero (S := S1024x1024) hz, View.ld_unit_zero (S := S1024x512) hz, View.ld_unit_zero (S := S512x1024) hz]
  rfl

/-- THE LAST POINT OF A RUN stores the new cell state: the cell payload of the input, forget and candidate column
    blocks of the updated accumulator and the old cell block. -/
theorem cell_last (hc0 : ¬cond0_0 i) (hc1 : cond0_1 i) (xs0 : Vec F S1024x1024 .f32) :
    out0_C_6 c i a3 h3 a4 h4 a5 h5 a6 h6 a7 h7 a8 h8 a9 h9 a10 h10 hc0 hc1 x0 x1 x2 x3 x4 xs0
      = k0_pay4 (colBlock 0 (accStep xs0 x0 x1 x2 x3)) (colBlock 1 (accStep xs0 x0 x1 x2 x3))
          (colBlock 2 (accStep xs0 x0 x1 x2 x3)) x4 := by
  unfold out0_C_6
  rw [View.read_writes_eq_canon _ _ _ (cover0_C_6 c i a3 h3 a4 h4 a5 h5 a6 h6 a7 h7 a8 h8 a9 h9 a10 h10 hc0 hc1 x0 x1 x2 x3 x4 xs0)]
  unfold kernelRun0_C
  dsimp only
  sl_unfold_words
  rw [View.canon_unit_zero (S := S1024x256) hz, View.readCov_unit_zero (S := S1024x1024) _ hz]
  simp only [View.readCov_eq_canon', View.canon_cons_unit_zero (S := S1024x1024) hz]
  simp only [View.readAt_eq_ld, h10.read_unread, h3.read_unread, h4.read_unread, h5.read_unread, h6.read_unread, h7.read_unread,
    View.ld_unit_zero (S := S1024x1024) hz, View.ld_unit_zero (S := S1024x512) hz, View.ld_unit_zero (S := S512x1024) hz,
    View.ld_unit_zero (S := S1024x256) hz]
  unfold accStep
  generalize k0_pay3 (k0_pay2 xs0 x0 x2) x1 x3 = A
  have e0 : (fun j => A ((Rect.unit (s := S1024x1024) ![0, 0] ![1024, 256] Facts₀.inb_S1024x1024_S1024x256_0_0).idx j)) = colBlock 0 A :=
    funext fun j => congrArg A (funext fun a => Fin.ext (by
      match a with
      | ⟨0, _⟩ => show 0 + 1 * (j 0).val = (j 0).val; omega
      | ⟨1, _⟩ => show 0 + 1 * (j 1).val = 256 * 0 + (j 1).val; omega))
  have e1 : (fun j => A ((Rect.unit (s := S1024x1024) ![0, 256] ![1024, 256] Facts₀.inb_S1024x1024_S1024x256_0_256).idx j)) = colBlock 1 A :=
    funext fun j => congrArg A (funext fun a => Fin.ext (by
      match a with
      | ⟨0, _⟩ => show 0 + 1 * (j 0).val = (j 0).val; omega
      | ⟨1, _⟩ => show 256 + 1 * (j 1).val = 256 * 1 + (j 1).val; omega))
  have e2 : (fun j => A ((Rect.unit (s := S1024x1024) ![0, 512] ![1024, 256] Facts₀.inb_S1024x1024_S1024x256_0_512).idx j)) = colBlock 2 A :=
    funext fun j => congrArg A (funext fun a => Fin.ext (by
      match a with
      | ⟨0, _⟩ => show 0 + 1 * (j 0).val = (j 0).val; omega
      | ⟨1, _⟩ => show 512 + 1 * (j 1).val = 256 * 2 + (j 1).val; omega))
  rw [e0, e1, e2]

/-- … and the new hidden state: the hidden payload of all four column blocks and the old cell block. -/
theorem hidden_last (hc0 : ¬cond0_0 i) (hc1 : cond0_1 i) (xs0 : Vec F S1024x1024 .f32) :
    out0_C_5 c i a3 h3 a4 h4 a5 h5 a6 h6 a7 h7 a8 h8 a9 h9 a10 h10 hc0 hc1 x0 x1 x2 x3 x4 xs0
      = k0_pay5 (colBlock 0 (accStep xs0 x0 x1 x2 x3)) (colBlock 3 (accStep xs0 x0 x1 x2 x3))
          (colBlock 1 (accStep xs0 x0 x1 x2 x3)) (colBlock 2 (accStep xs0 x0 x1 x2 x3)) x4 := by
  unfold out0_C_5
  rw [View.read_writes_eq_canon _ _ _ (cover0_C_5 c i a3 h3 a4 h4 a5 h5 a6 h6 a7 h7 a8 h8 a9 h9 a10 h10 hc0 hc1 x0 x1 x2 x3 x4 xs0)]
  unfold kernelRun0_C
  dsimp only
  sl_unfold_words
  rw [View.canon_unit_zero (S := S1024x256) hz, View.readCov_unit_zero (S := S1024x1024) _ hz]
  simp only [View.readCov_eq_canon', View.canon_cons_unit_zero (S := S1024x1024) hz]
  simp only [View.readAt_eq_ld, h10.read_unread, h3.read_unread, h4.read_unread, h5.read_unread, h6.read_unread, h7.read_unread,
    View.ld_unit_zero (S := S1024x1024) hz, View.ld_unit_zero (S := S1024x512) hz, View.ld_unit_zero (S := S512x1024) hz,
    View.ld_unit_zero (S := S1024x256) hz]
  unfold accStep
  generalize k0_pay3 (k0_pay2 xs0 x0 x2) x1 x3 = A
  have e0 : (fun j => A ((Rect.unit (s := S1024x1024) ![0, 0] ![1024, 256] Facts₀.inb_S1024x1024_S1024x256_0_0).idx j)) = colBlock 0 A :=
    funext fun j => congrArg A (funext fun a => Fin.ext (by
      match a with
      | ⟨0, _⟩ => show 0 + 1 * (j 0).val = (j 0).val; omega
      | ⟨1, _⟩ => show 0 + 1 * (j 1).val = 256 * 0 + (j 1).val; omega))
  have e1 : (fun j => A ((Rect.unit (s := S1024x1024) ![0, 256] ![1024, 256] Facts₀.inb_S1024x1024_S1024x256_0_256).idx j)) = colBlock 1 A :=
    funext fun j => congrArg A (funext fun a => Fin.ext (by
      match a with
      | ⟨0, _⟩ => show 0 + 1 * (j 0).val = (j 0).val; omega
      | ⟨1, _⟩ => show 256 + 1 * (j 1).val = 256 * 1 + (j 1).val; omega))
  have e2 : (fun j => A ((Rect.unit (s := S1024x1024) ![0, 512] ![1024, 256] Facts₀.inb_S1024x1024_S1024x256_0_512).idx j)) = colBlock 2 A :=
    funext fun j => congrArg A (funext fun a => Fin.ext (by
      match a with
      | ⟨0, _⟩ => show 0 + 1 * (j 0).val = (j 0).val; omega
      | ⟨1, _⟩ => show 512 + 1 * (j 1).val = 256 * 2 + (j 1).val; omega))
  have e3 : (fun j => A ((Rect.unit (s := S1024x1024) ![0, 768] ![1024, 256] Facts₀.inb_S1024x1024_S1024x256_0_768).idx j)) = colBlock 3 A :=
    funext fun j => congrArg A (funext fun a => Fin.ext (by
      match a with
      | ⟨0, _⟩ => show 0 + 1 * (j 0).val = (j 0).val; omega
      | ⟨1, _⟩ => show 768 + 1 * (j 1).val = 256 * 3 + (j 1).val; omega))
  rw [e0, e1, e2, e3]

end

end Cert.KernelIdeal.Cell

end
-- ==== Proof.CellPayload.lean ====
/-
  The body's payloads read at an index, over the extended reals.

  The zero fill is 0 everywhere. One accumulate step at (p, q) adds to the accumulator the sum over the 512 features
  of the block of (left block at (p, k)) · (right block at (k, q)): a matrix product into a zero accumulator is that
  plain sum, and a change of float format is the identity. The two closing payloads are pointwise: at each index
  they are the cell formula and the hidden-state formula of the four pre-activations and the old cell state there.
-/
import proofs.«145058_j75797582840479_2_alg».proof.Proof.CellSpec
import proofs.«145058_j75797582840479_2_alg».proof.Proof.CellPieces
import Idealize.ShloMosaic.PureOps.Ideal.Laws
import Idealize.ShloMosaic.Lib.ValueIdx
import Idealize.ShloMosaic.Lib.Pipeline.Value

noncomputable section

open Idealize.ShloMosaic Idealize.ShloMosaic.TcCoe Idealize.SL.Sem

namespace Cert.KernelIdeal.Cell

open Cert.KernelIdeal Cert.KernelIdeal.Gen Idealize.ShloMosaic.ValueIdx Cert.CellSpec

/-- The zero fill is 0 at every index. -/
theorem zeroFill_apply (j : S1024x1024.Idx) : (k0_pay1 (F := Ideal)) j = 0 := by
  unfold k0_pay1
  rw [shapeCast_self]
  show Ideal.ofBits .f32 0x00000000#32 = 0
  exact Ideal.ofBits_zero_f32

theorem lhs_row (j : S1024x1024.Idx) (k : dot_S1024x512_S512x1024_S1024x1024_1_0_0_1_n_n.contr.Idx) : (dot_S1024x512_S512x1024_S1024x1024_1_0_0_1_n_n.lhsIdx j k 0).val = (j 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl

theorem rhs_col (j : S1024x1024.Idx) (k : dot_S1024x512_S512x1024_S1024x1024_1_0_0_1_n_n.contr.Idx) : (dot_S1024x512_S512x1024_S1024x1024_1_0_0_1_n_n.rhsIdx j k 1).val = (j 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- A 1024 × 512 block times a 512 × 1024 block into the zero accumulator, at (p, q): the sum over the 512 features. -/
theorem blockProd_apply (l : FVec Ideal S1024x512 .bf16) (r : FVec Ideal S512x1024 .bf16) (p q : Fin 1024) :
    matmul dot_S1024x512_S512x1024_S1024x1024_1_0_0_1_n_n none l r (constant S1024x1024 .f32 0x00000000#32) (ix2 p q)
      = ∑ k : Fin 512, l (ix2 p k) * r (ix2 k q) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact lhs_row _ _
    | ⟨1, _⟩ => exact (dot_S1024x512_S512x1024_S1024x1024_1_0_0_1_n_n.lhsIdx_val_of_single rfl _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (dot_S1024x512_S512x1024_S1024x1024_1_0_0_1_n_n.rhsIdx_val_of_single rfl _ _).trans hk
    | ⟨1, _⟩ => exact rhs_col _ _)
  rw [el, er]

/-- One point's update of the accumulator at (p, q): what it held, plus the input-path sum, plus the recurrent-path sum. -/
theorem accStep_apply (acc : Vec Ideal S1024x1024 .f32) (x0 x1 : Vec Ideal S1024x512 .bf16) (x2 x3 : Vec Ideal S512x1024 .bf16)
    (p q : Fin 1024) :
    accStep acc x0 x1 x2 x3 (ix2 p q)
      = (acc (ix2 p q) + ∑ k : Fin 512, x0 (ix2 p k) * x2 (ix2 k q)) + ∑ k : Fin 512, x1 (ix2 p k) * x3 (ix2 k q) := by
  unfold accStep k0_pay3 k0_pay2
  dsimp only
  simp only [shapeCast_self]
  rw [addf_apply, addf_apply, blockProd_apply, blockProd_apply]

/-- The cell payload is pointwise the cell formula. -/
theorem cellPayload_apply (zi zf zc cp : Vec Ideal S1024x256 .f32) (j : S1024x256.Idx) :
    k0_pay4 zi zf zc cp j = cellOf (zi j) (zf j) (zc j) (cp j) := rfl

/-- The hidden-state payload is pointwise the hidden-state formula. -/
theorem hiddenPayload_apply (zi zo zf zc cp : Vec Ideal S1024x256 .f32) (j : S1024x256.Idx) :
    k0_pay5 zi zo zf zc cp j = hiddenOf (zi j) (zf j) (zc j) (zo j) (cp j) := rfl

end Cert.KernelIdeal.Cell

end
-- ==== Proof.CellBlocks.lean ====
/-
  The blocks the kernel's windows hand to the body, read at an index of the argument arrays.

  The grid has 4 × 8 × 4 points; point t has batch block b = t / 32, column block n = t / 4 mod 8 and feature
  stretch k = t mod 4. The input and hidden-state windows read rows 1024·b … and features 512·k … of their arrays, which
  on entry hold the arguments themselves (the change of float format before the region is the identity). The two weight
  windows read features 512·k … and columns 1024·n … of the REPACKED weights: before the region each weight matrix is
  reshaped to (feature, gate, column block, column), its two middle axes are exchanged, and it is flattened again, so
  that column 1024·n + 256·g + q of the repacked matrix is column 2048·g + 256·n + q of the argument: unit 256·n + q of
  gate g. The cell-state window and the two output windows read rows 1024·b … and units 256·n ….
-/
import proofs.«145058_j75797582840479_2_alg».proof.Proof.CellSpec
import proofs.«145058_j75797582840479_2_alg».proof.Proof.CellPieces
import Idealize.ShloMosaic.Lib.Pipeline.Value
import Idealize.ShloMosaic.Lib.StableHlo.Run
import Idealize.ShloMosaic.Lib.Tactic
import Idealize.ShloMosaic.Lib.ValueIdx

noncomputable section

open Idealize.ShloMosaic Idealize.ShloMosaic.TcCoe Idealize.SL.Sem

namespace Cert.KernelIdeal.Cell

open Cert.KernelIdeal Cert.KernelIdeal.Gen Idealize.ShloMosaic.ValueIdx Idealize.ShloMosaic.StableHlo Cert.CellSpec

/-- Row `1024·b + p`: row `p` of batch block `b`. -/
def brow (b : Fin 4) (p : Fin 1024) : Fin 4096 := ⟨1024 * b.val + p.val, by have := b.isLt; have := p.isLt; omega⟩

/-- Unit `256·n + q`: unit `q` of column block `n`. -/
def ucol (n : Fin 8) (q : Fin 256) : Fin 2048 := ⟨256 * n.val + q.val, by have := n.isLt; have := q.isLt; omega⟩

/-- Column `1024·n + 256·g + q` of a repacked weight matrix. -/
def wcol (n : Fin 8) (g : Fin 4) (q : Fin 256) : Fin 8192 :=
  ⟨1024 * n.val + 256 * g.val + q.val, by have := n.isLt; have := g.isLt; have := q.isLt; omega⟩

/-! ## The repack, read at an index -/

/-- Column `1024·n + 256·g + q` of the repacked matrix is column `2048·g + 256·n + q` of the matrix. -/
theorem repack_apply (W : S2048x8192.Idx → EReal) (h1 : S2048x8192.ShapeCasts S2048x4x8x256)
    (h2 : S2048x4x8x256.Transposes [0, 2, 1, 3] S2048x8x4x256) (h3 : S2048x8x4x256.ShapeCasts S2048x8192)
    (d : Fin 2048) (n : Fin 8) (g : Fin 4) (q : Fin 256) :
    shapeCast S2048x8192 (transpose S2048x8x4x256 [0, 2, 1, 3] (shapeCast S2048x4x8x256 W h1) h2) h3 (ix2 d (wcol n g q))
      = W (ix2 d (gcol g (ucol n q))) := by
  refine (shapeCast_apply _ h3 (ix2 d (wcol n g q)) (ix4 d n g q) ?_).trans ?_
  · rw [Shape.rowMajor_val_four, Shape.rowMajor_val_two]
    show ((d.val * 8 + n.val) * 4 + g.val) * 256 + q.val = d.val * 8192 + (1024 * n.val + 256 * g.val + q.val)
    omega
  refine (transpose_apply _ _ h2 (ix4 d n g q) (ix4 d g n q) ?_).trans ?_
  · intro b
    match b with
    | ⟨0, _⟩ => rfl
    | ⟨1, _⟩ => rfl
    | ⟨2, _⟩ => rfl
    | ⟨3, _⟩ => rfl
  refine shapeCast_apply _ h1 (ix4 d g n q) (ix2 d (gcol g (ucol n q))) ?_
  rw [Shape.rowMajor_val_four, Shape.rowMajor_val_two]
  show d.val * 8192 + (2048 * g.val + (256 * n.val + q.val)) = ((d.val * 4 + g.val) * 8 + n.val) * 256 + q.val
  omega

variable (m : (ℓ : Loc nD τ sig) → Buf (Elt Ideal) ℓ)

/-! ## What the windows' arrays hold when the region is entered -/

theorem entry_x (c : Dev nD) : (V m c main_v0 : S4096x2048.Idx → EReal) = (m ((c : Thread nD τ).loc main_arg0) : S4096x2048.Idx → EReal) := by
  dsimp only [V, hostOps0]
  after_results
  rfl

theorem entry_h (c : Dev nD) : (V m c main_v1 : S4096x2048.Idx → EReal) = (m ((c : Thread nD τ).loc main_arg1) : S4096x2048.Idx → EReal) := by
  dsimp only [V, hostOps0]
  after_results
  rfl

theorem entry_W (c : Dev nD) : (V m c main_v5 : S2048x8192.Idx → EReal)
    = shapeCast S2048x8192 (transpose S2048x8x4x256 [0, 2, 1, 3]
        (shapeCast S2048x4x8x256 (m ((c : Thread nD τ).loc main_arg3) : S2048x8192.Idx → EReal) Facts₀.shapeCasts_S2048x8192_S2048x4x8x256)
        Facts₀.transposes_S2048x4x8x256_S2048x8x4x256_0_2_1_3) Facts₀.shapeCasts_S2048x8x4x256_S2048x8192 := by
  dsimp only [V, hostOps0]
  after_results
  rfl

theorem entry_R (c : Dev nD) : (V m c main_v9 : S2048x8192.Idx → EReal)
    = shapeCast S2048x8192 (transpose S2048x8x4x256 [0, 2, 1, 3]
        (shapeCast S2048x4x8x256 (m ((c : Thread nD τ).loc main_arg4) : S2048x8192.Idx → EReal) Facts₀.shapeCasts_S2048x8192_S2048x4x8x256)
        Facts₀.transposes_S2048x4x8x256_S2048x8x4x256_0_2_1_3) Facts₀.shapeCasts_S2048x8x4x256_S2048x8192 := by
  dsimp only [V, hostOps0]
  after_results
  rfl

/-! ## The index maps, over the grid -/

/-- Each window's block index at point `t`, in closed form: decided over the 128 points. -/
theorem idx_facts : ∀ t : Fin cfg0.N,
    win0_0.index t (0 : Fin 2) = t.val / 32 ∧ win0_0.index t (1 : Fin 2) = t.val % 4
    ∧ win0_1.index t (0 : Fin 2) = t.val / 32 ∧ win0_1.index t (1 : Fin 2) = t.val % 4
    ∧ win0_2.index t (0 : Fin 2) = t.val % 4 ∧ win0_2.index t (1 : Fin 2) = t.val / 4 % 8
    ∧ win0_3.index t (0 : Fin 2) = t.val % 4 ∧ win0_3.index t (1 : Fin 2) = t.val / 4 % 8
    ∧ win0_4.index t (0 : Fin 2) = t.val / 32 ∧ win0_4.index t (1 : Fin 2) = t.val / 4 % 8
    ∧ win0_5.index t (0 : Fin 2) = t.val / 32 ∧ win0_5.index t (1 : Fin 2) = t.val / 4 % 8
    ∧ win0_6.index t (0 : Fin 2) = t.val / 32 ∧ win0_6.index t (1 : Fin 2) = t.val / 4 % 8 :=
  (by decide +kernel : ∀ t : Fin grid0.N, _)

/-! ## The blocks, read at an index -/

/-- The input window's block at (p, j): row `p` of batch block `b`, feature `j` of stretch `k`, of the input. -/
theorem blk_x (c : Dev nD) (t : Fin cfg0.N) (b k : Fin 4) (hb : t.val / 32 = b.val) (hk : t.val % 4 = k.val) (p : Fin 1024) (j : Fin 512) :
    (iblk m c 0 t) (ix2 p j) = (m ((c : Thread nD τ).loc main_arg0) (ix2 (brow b p) (feat k j)) : EReal) := by
  unfold iblk
  rw [View.read_apply]
  show V m c main_v0 (((cfg0.win 0).blk t).view.emb (ix2 p j)) = _
  rw [entry_x m c]
  refine congrArg (m ((c : Thread nD τ).loc main_arg0)) (funext fun a => Fin.ext ?_)
  have hi := idx_facts t
  match a with
  | ⟨0, _⟩ => show win0_0.index t (0 : Fin 2) * 1024 + 1 * p.val = 1024 * b.val + p.val; rw [hi.1, hb]; omega
  | ⟨1, _⟩ => show win0_0.index t (1 : Fin 2) * 512 + 1 * j.val = 512 * k.val + j.val; rw [hi.2.1, hk]; omega

/-- The hidden-state window's block at (p, j), likewise of the old hidden state. -/
theorem blk_h (c : Dev nD) (t : Fin cfg0.N) (b k : Fin 4) (hb : t.val / 32 = b.val) (hk : t.val % 4 = k.val) (p : Fin 1024) (j : Fin 512) :
    (iblk m c 1 t) (ix2 p j) = (m ((c : Thread nD τ).loc main_arg1) (ix2 (brow b p) (feat k j)) : EReal) := by
  unfold iblk
  rw [View.read_apply]
  show V m c main_v1 (((cfg0.win 1).blk t).view.emb (ix2 p j)) = _
  rw [entry_h m c]
  refine congrArg (m ((c : Thread nD τ).loc main_arg1)) (funext fun a => Fin.ext ?_)
  have hi := idx_facts t
  match a with
  | ⟨0, _⟩ => show win0_1.index t (0 : Fin 2) * 1024 + 1 * p.val = 1024 * b.val + p.val; rw [hi.2.2.1, hb]; omega
  | ⟨1, _⟩ => show win0_1.index t (1 : Fin 2) * 512 + 1 * j.val = 512 * k.val + j.val; rw [hi.2.2.2.1, hk]; omega

/-- The cell-state window's block at (p, q): row `p` of batch block `b`, unit `q` of column block `n`, of the old cell state. -/
theorem blk_c (c : Dev nD) (t : Fin cfg0.N) (b : Fin 4) (n : Fin 8) (hb : t.val / 32 = b.val) (hn : t.val / 4 % 8 = n.val) (p : Fin 1024) (q : Fin 256) :
    (iblk m c 4 t) (ix2 p q) = (m ((c : Thread nD τ).loc main_arg2) (ix2 (brow b p) (ucol n q)) : EReal) := by
  unfold iblk
  rw [View.read_apply]
  show V m c main_arg2 (((cfg0.win 4).blk t).view.emb (ix2 p q)) = _
  rw [V_main_arg2 m c]
  refine congrArg (m ((c : Thread nD τ).loc main_arg2)) (funext fun a => Fin.ext ?_)
  have hi := idx_facts t
  match a with
  | ⟨0, _⟩ => show win0_4.index t (0 : Fin 2) * 1024 + 1 * p.val = 1024 * b.val + p.val; rw [hi.2.2.2.2.2.2.2.2.1, hb]; omega
  | ⟨1, _⟩ => show win0_4.index t (1 : Fin 2) * 256 + 1 * q.val = 256 * n.val + q.val; rw [hi.2.2.2.2.2.2.2.2.2.1, hn]; omega

/-- Where the weight windows' block sits in the repacked matrix. -/
theorem wblk_idx (t : Fin cfg0.N) (k : Fin 4) (n : Fin 8) (hk : t.val % 4 = k.val) (hn : t.val / 4 % 8 = n.val)
    (j : Fin 512) (g : Fin 4) (q : Fin 256) :
    (((cfg0.win 2).blk t).view.emb (ix2 j (gateCol g q)) : S2048x8192.Idx) = ix2 (feat k j) (wcol n g q) := by
  refine funext fun a => Fin.ext ?_
  have hi := idx_facts t
  match a with
  | ⟨0, _⟩ => show win0_2.index t (0 : Fin 2) * 512 + 1 * j.val = 512 * k.val + j.val; rw [hi.2.2.2.2.1, hk]; omega
  | ⟨1, _⟩ => show win0_2.index t (1 : Fin 2) * 1024 + 1 * (256 * g.val + q.val) = 1024 * n.val + 256 * g.val + q.val; rw [hi.2.2.2.2.2.1, hn]; omega

theorem rblk_idx (t : Fin cfg0.N) (k : Fin 4) (n : Fin 8) (hk : t.val % 4 = k.val) (hn : t.val / 4 % 8 = n.val)
    (j : Fin 512) (g : Fin 4) (q : Fin 256) :
    (((cfg0.win 3).blk t).view.emb (ix2 j (gateCol g q)) : S2048x8192.Idx) = ix2 (feat k j) (wcol n g q) := by
  refine funext fun a => Fin.ext ?_
  have hi := idx_facts t
  match a with
  | ⟨0, _⟩ => show win0_3.index t (0 : Fin 2) * 512 + 1 * j.val = 512 * k.val + j.val; rw [hi.2.2.2.2.2.2.1, hk]; omega
  | ⟨1, _⟩ => show win0_3.index t (1 : Fin 2) * 1024 + 1 * (256 * g.val + q.val) = 1024 * n.val + 256 * g.val + q.val; rw [hi.2.2.2.2.2.2.2.1, hn]; omega

/-- The input-weight window's block at (j, 256·g + q): feature `j` of stretch `k`, unit `q` of column block `n` of gate `g`,
    of the input weights. -/
theorem blk_W (c : Dev nD) (t : Fin cfg0.N) (k : Fin 4) (n : Fin 8) (hk : t.val % 4 = k.val) (hn : t.val / 4 % 8 = n.val)
    (j : Fin 512) (g : Fin 4) (q : Fin 256) :
    (iblk m c 2 t) (ix2 j (gateCol g q)) = (m ((c : Thread nD τ).loc main_arg3) (ix2 (feat k j) (gcol g (ucol n q))) : EReal) := by
  unfold iblk
  rw [View.read_apply]
  show V m c main_v5 (((cfg0.win 2).blk t).view.emb (ix2 j (gateCol g q))) = _
  rw [wblk_idx t k n hk hn j g q, entry_W m c]
  exact repack_apply _ _ _ _ (feat k j) n g q

/-- The recurrent-weight window's block at (j, 256·g + q), likewise of the recurrent weights. -/
theorem blk_R (c : Dev nD) (t : Fin cfg0.N) (k : Fin 4) (n : Fin 8) (hk : t.val % 4 = k.val) (hn : t.val / 4 % 8 = n.val)
    (j : Fin 512) (g : Fin 4) (q : Fin 256) :
    (iblk m c 3 t) (ix2 j (gateCol g q)) = (m ((c : Thread nD τ).loc main_arg4) (ix2 (feat k j) (gcol g (ucol n q))) : EReal) := by
  unfold iblk
  rw [View.read_apply]
  show V m c main_v9 (((cfg0.win 3).blk t).view.emb (ix2 j (gateCol g q))) = _
  rw [rblk_idx t k n hk hn j g q, entry_R m c]
  exact repack_apply _ _ _ _ (feat k j) n g q

end Cert.KernelIdeal.Cell

end
-- ==== Proof.CellScratch.lean ====
/-
  The accumulator between grid points.

  Fix a batch block b and a column block n; the four points of their run are the feature stretches k = 0, 1, 2, 3. After
  the point of stretch k the accumulator holds, at row p and column 256·g + q, the interleaved partial sums
      (((0 + a 0) + b 0) + a 1) + b 1 …  up to stretch k,
  where a k is the stretch-k part of Σ_d x r d · W d col and b k that of Σ_d h r d · R d col, at the row r = 1024·b + p
  of the arguments and the column col = 2048·g + 256·n + q of the weights: the blocks the windows hand to the body are
  exactly those stretches (the block-read lemmas), one update adds the two block products (the payload lemma), and the
  first point of a run starts from the zero fill. By induction on the point.
-/
import proofs.«145058_j75797582840479_2_alg».proof.Proof.CellPayload
import proofs.«145058_j75797582840479_2_alg».proof.Proof.CellBlocks

noncomputable section

open Idealize.ShloMosaic Idealize.ShloMosaic.TcCoe Idealize.SL.Sem

namespace Cert.KernelIdeal.Cell

open Cert.KernelIdeal Cert.KernelIdeal.Gen Idealize.ShloMosaic.ValueIdx Cert.CellSpec

variable (m : (ℓ : Loc nD τ sig) → Buf (Elt Ideal) ℓ)

/-- The stretch-`k` part of a row-times-column sum, for a stretch number given as a natural number (0 beyond the four). -/
def partN (x : Mat 4096 2048) (W : Mat 2048 8192) (r : Fin 4096) (col : Fin 8192) (k : ℕ) : EReal :=
  if h : k < 4 then partSum x W r col ⟨k, h⟩ else 0

theorem partN_of_lt (x : Mat 4096 2048) (W : Mat 2048 8192) (r : Fin 4096) (col : Fin 8192) (k : Fin 4) :
    partN x W r col k.val = partSum x W r col k := by
  unfold partN
  rw [dif_pos k.isLt]

/-- The input-path and recurrent-path partial sums of device `c`'s arguments. -/
abbrev aPart (c : Dev nD) (r : Fin 4096) (col : Fin 8192) (k : ℕ) : EReal :=
  partN (m ((c : Thread nD τ).loc main_arg0)) (m ((c : Thread nD τ).loc main_arg3)) r col k
abbrev bPart (c : Dev nD) (r : Fin 4096) (col : Fin 8192) (k : ℕ) : EReal :=
  partN (m ((c : Thread nD τ).loc main_arg1)) (m ((c : Thread nD τ).loc main_arg4)) r col k

/-- ONE UPDATE at point `s` (batch block `b`, column block `n`, stretch `k`), read at row `p`, column `256·g + q`:
    what the accumulator held there, plus the stretch's input-path part, plus its recurrent-path part. -/
theorem accStep_point (c : Dev nD) (s : Fin cfg0.N) (b : Fin 4) (n : Fin 8) (k : Fin 4)
    (hb : s.val / 32 = b.val) (hn : s.val / 4 % 8 = n.val) (hk : s.val % 4 = k.val)
    (acc : Vec Ideal S1024x1024 .f32) (p : Fin 1024) (g : Fin 4) (q : Fin 256) :
    accStep acc (iblk m c 0 s) (iblk m c 1 s) (iblk m c 2 s) (iblk m c 3 s) (ix2 p (gateCol g q))
      = (acc (ix2 p (gateCol g q)) + aPart m c (brow b p) (gcol g (ucol n q)) k.val)
          + bPart m c (brow b p) (gcol g (ucol n q)) k.val := by
  refine (accStep_apply acc (iblk m c 0 s) (iblk m c 1 s) (iblk m c 2 s) (iblk m c 3 s) p (gateCol g q)).trans ?_
  refine congrArg₂ (· + ·) (congrArg (fun z => acc (ix2 p (gateCol g q)) + z) ?_) ?_
  · rw [aPart, partN_of_lt]
    unfold partSum
    exact Finset.sum_congr rfl fun j _ => by rw [blk_x m c s b k hb hk p j, blk_W m c s k n hk hn j g q]
  · rw [bPart, partN_of_lt]
    unfold partSum
    exact Finset.sum_congr rfl fun j _ => by rw [blk_h m c s b k hb hk p j, blk_R m c s k n hk hn j g q]

/-- THE INVARIANT. After a point `s` that is not the last of its run, the accumulator at row `p`, column `256·g + q` holds
    the interleaved partial sums up to the point's stretch. -/
theorem scratch_inv (c : Dev nD) : ∀ (s : ℕ) (hs : s < cfg0.N) (b : Fin 4) (n : Fin 8), s / 32 = b.val → s / 4 % 8 = n.val → s % 4 ≠ 3 →
    ∀ (p : Fin 1024) (g : Fin 4) (q : Fin 256),
      (outsAt0 m c s hs).2.2 (ix2 p (gateCol g q))
        = accUpTo (aPart m c (brow b p) (gcol g (ucol n q))) (bPart m c (brow b p) (gcol g (ucol n q))) (s % 4)
  | 0, hs, b, n, hb, hn, _, p, g, q => by
    have e := outsAt0_A m c ⟨0, hs⟩ rfl (by show ¬ (0 % 4 = 3); decide)
    rw [show outsAt0 m c 0 hs = outsAt0 m c (⟨0, hs⟩ : Fin cfg0.N).val (⟨0, hs⟩ : Fin cfg0.N).isLt from rfl, e]
    dsimp only
    rw [scratch_first c (grid0.coords ⟨0, hs⟩) (ms0_0 ⟨0, hs⟩) (hs0_0 ⟨0, hs⟩) (ms0_1 ⟨0, hs⟩) (hs0_1 ⟨0, hs⟩) (ms0_2 ⟨0, hs⟩) (hs0_2 ⟨0, hs⟩) (ms0_3 ⟨0, hs⟩) (hs0_3 ⟨0, hs⟩) (ms0_4 ⟨0, hs⟩) (hs0_4 ⟨0, hs⟩) (ms0_5 ⟨0, hs⟩) (hs0_5 ⟨0, hs⟩) (ms0_6 ⟨0, hs⟩) (hs0_6 ⟨0, hs⟩) scM0_0 (Memref.isWhole_whole _) (iblk m c 0 ⟨0, hs⟩) (iblk m c 1 ⟨0, hs⟩) (iblk m c 2 ⟨0, hs⟩) (iblk m c 3 ⟨0, hs⟩) (iblk m c 4 ⟨0, hs⟩) _ _]
    refine (accStep_point m c ⟨0, hs⟩ b n 0 hb hn rfl (k0_pay1 (F := Ideal)) p g q).trans ?_
    rw [zeroFill_apply]
    rfl
  | s + 1, hs, b, n, hb, hn, h3, p, g, q => by
    have hN : s + 1 < 128 := lt_of_lt_of_eq hs N_0
    by_cases h0 : (s + 1) % 4 = 0
    · have e := outsAt0_A m c ⟨s + 1, hs⟩ h0 h3
      rw [show outsAt0 m c (s + 1) hs = outsAt0 m c (⟨s + 1, hs⟩ : Fin cfg0.N).val (⟨s + 1, hs⟩ : Fin cfg0.N).isLt from rfl, e]
      dsimp only
      rw [scratch_first c (grid0.coords ⟨s + 1, hs⟩) (ms0_0 ⟨s + 1, hs⟩) (hs0_0 ⟨s + 1, hs⟩) (ms0_1 ⟨s + 1, hs⟩) (hs0_1 ⟨s + 1, hs⟩) (ms0_2 ⟨s + 1, hs⟩) (hs0_2 ⟨s + 1, hs⟩) (ms0_3 ⟨s + 1, hs⟩) (hs0_3 ⟨s + 1, hs⟩) (ms0_4 ⟨s + 1, hs⟩) (hs0_4 ⟨s + 1, hs⟩) (ms0_5 ⟨s + 1, hs⟩) (hs0_5 ⟨s + 1, hs⟩) (ms0_6 ⟨s + 1, hs⟩) (hs0_6 ⟨s + 1, hs⟩) scM0_0 (Memref.isWhole_whole _) (iblk m c 0 ⟨s + 1, hs⟩) (iblk m c 1 ⟨s + 1, hs⟩) (iblk m c 2 ⟨s + 1, hs⟩) (iblk m c 3 ⟨s + 1, hs⟩) (iblk m c 4 ⟨s + 1, hs⟩) _ _]
      refine (accStep_point m c ⟨s + 1, hs⟩ b n 0 hb hn h0 (k0_pay1 (F := Ideal)) p g q).trans ?_
      rw [zeroFill_apply, h0]
      rfl
    · have e := outsAt0_B m c ⟨s + 1, hs⟩ h0 h3
      rw [show outsAt0 m c (s + 1) hs = outsAt0 m c (⟨s + 1, hs⟩ : Fin cfg0.N).val (⟨s + 1, hs⟩ : Fin cfg0.N).isLt from rfl, e]
      dsimp only
      rw [scratch_middle c (grid0.coords ⟨s + 1, hs⟩) (ms0_0 ⟨s + 1, hs⟩) (hs0_0 ⟨s + 1, hs⟩) (ms0_1 ⟨s + 1, hs⟩) (hs0_1 ⟨s + 1, hs⟩) (ms0_2 ⟨s + 1, hs⟩) (hs0_2 ⟨s + 1, hs⟩) (ms0_3 ⟨s + 1, hs⟩) (hs0_3 ⟨s + 1, hs⟩) (ms0_4 ⟨s + 1, hs⟩) (hs0_4 ⟨s + 1, hs⟩) (ms0_5 ⟨s + 1, hs⟩) (hs0_5 ⟨s + 1, hs⟩) (ms0_6 ⟨s + 1, hs⟩) (hs0_6 ⟨s + 1, hs⟩) scM0_0 (Memref.isWhole_whole _) (iblk m c 0 ⟨s + 1, hs⟩) (iblk m c 1 ⟨s + 1, hs⟩) (iblk m c 2 ⟨s + 1, hs⟩) (iblk m c 3 ⟨s + 1, hs⟩) (iblk m c 4 ⟨s + 1, hs⟩) _ _ _]
      have hk : (s + 1) % 4 = s % 4 + 1 := by omega
      have hklt : s % 4 + 1 < 4 := by omega
      refine (accStep_point m c ⟨s + 1, hs⟩ b n ⟨s % 4 + 1, hklt⟩ hb hn hk _ p g q).trans ?_
      have ih := scratch_inv c s (Nat.lt_of_succ_lt hs) b n (by omega) (by omega) (by omega) p g q
      rw [show (outsAt0 m c ((⟨s + 1, hs⟩ : Fin cfg0.N).val - 1) (Nat.lt_of_le_of_lt (Nat.sub_le _ _) (⟨s + 1, hs⟩ : Fin cfg0.N).isLt)).2.2
            = (outsAt0 m c s (Nat.lt_of_succ_lt hs)).2.2 from rfl, ih, hk]
      rfl

end Cert.KernelIdeal.Cell

end
-- ==== Proof.CellFinal.lean ====
/-
  The two output arrays after the run.

  The output windows write a block back only at the last point of a run of four (the points t with t mod 4 = 3): there
  the body has updated the accumulator a fourth time, so at row p and column 256·g + q it holds the whole pre-activation
  z r (2048·g + 256·n + q) of row r = 1024·b + p — the interleaved partial sums of all four stretches are the two whole
  sums — and the payloads it stores are the cell formula and the hidden-state formula of those pre-activations. So what
  such a point writes back is block (b, n) of the new cell state, and of the new hidden state; every index of either array
  lies in the block of exactly such a point, and each array ends holding the new state.
-/
import proofs.«145058_j75797582840479_2_alg».proof.Proof.CellScratch
import proofs.«145058_j75797582840479_2_alg».proof.Proof.Gen.KernelIdeal.Value

noncomputable section

open Idealize.ShloMosaic Idealize.ShloMosaic.TcCoe Idealize.SL.Sem
open Idealize.ShloMosaic.Pipeline (Dat)

namespace Cert.KernelIdeal.Cell

open Cert.KernelIdeal Cert.KernelIdeal.Gen Idealize.ShloMosaic.ValueIdx Cert.CellSpec

variable (m : (ℓ : Loc nD τ sig) → Buf (Elt Ideal) ℓ) (ρ : Dev nD → PrngReg)

/-- The new cell state of device `c`'s arguments. -/
abbrev cellArr (c : Dev nD) : Mat 4096 2048 := newCell (m ((c : Thread nD τ).loc main_arg0)) (m ((c : Thread nD τ).loc main_arg1)) (m ((c : Thread nD τ).loc main_arg2)) (m ((c : Thread nD τ).loc main_arg3)) (m ((c : Thread nD τ).loc main_arg4))
/-- The new hidden state of device `c`'s arguments. -/
abbrev hiddenArr (c : Dev nD) : Mat 4096 2048 := newHidden (m ((c : Thread nD τ).loc main_arg0)) (m ((c : Thread nD τ).loc main_arg1)) (m ((c : Thread nD τ).loc main_arg2)) (m ((c : Thread nD τ).loc main_arg3)) (m ((c : Thread nD τ).loc main_arg4))

/-! ## Which points write back, and where their blocks sit -/

theorem flush_iff5 : ∀ t : Fin cfg0.N, (cfg0.win 5).flush t = true ↔ t.val % 4 = 3 :=
  (by decide +kernel : ∀ t : Fin grid0.N, _)
theorem flush_iff6 : ∀ t : Fin cfg0.N, (cfg0.win 6).flush t = true ↔ t.val % 4 = 3 :=
  (by decide +kernel : ∀ t : Fin grid0.N, _)

theorem oblk5_idx (t : Fin cfg0.N) (b : Fin 4) (n : Fin 8) (hb : t.val / 32 = b.val) (hn : t.val / 4 % 8 = n.val)
    (p : Fin 1024) (q : Fin 256) :
    (((cfg0.win 5).blk t).view.emb (ix2 p q) : S4096x2048.Idx) = ix2 (brow b p) (ucol n q) := by
  refine funext fun a => Fin.ext ?_
  have hi := idx_facts t
  match a with
  | ⟨0, _⟩ => show win0_5.index t (0 : Fin 2) * 1024 + 1 * p.val = 1024 * b.val + p.val; rw [hi.2.2.2.2.2.2.2.2.2.2.1, hb]; omega
  | ⟨1, _⟩ => show win0_5.index t (1 : Fin 2) * 256 + 1 * q.val = 256 * n.val + q.val; rw [hi.2.2.2.2.2.2.2.2.2.2.2.1, hn]; omega

theorem oblk6_idx (t : Fin cfg0.N) (b : Fin 4) (n : Fin 8) (hb : t.val / 32 = b.val) (hn : t.val / 4 % 8 = n.val)
    (p : Fin 1024) (q : Fin 256) :
    (((cfg0.win 6).blk t).view.emb (ix2 p q) : S4096x2048.Idx) = ix2 (brow b p) (ucol n q) := by
  refine funext fun a => Fin.ext ?_
  have hi := idx_facts t
  match a with
  | ⟨0, _⟩ => show win0_6.index t (0 : Fin 2) * 1024 + 1 * p.val = 1024 * b.val + p.val; rw [hi.2.2.2.2.2.2.2.2.2.2.2.2.1, hb]; omega
  | ⟨1, _⟩ => show win0_6.index t (1 : Fin 2) * 256 + 1 * q.val = 256 * n.val + q.val; rw [hi.2.2.2.2.2.2.2.2.2.2.2.2.2, hn]; omega

/-! ## The pre-activation at a last point -/

/-- AT THE LAST POINT of a run the updated accumulator holds, at row `p` and column `256·g + q`, the whole pre-activation. -/
theorem preact_last (c : Dev nD) (t : Fin cfg0.N) (b : Fin 4) (n : Fin 8) (hb : t.val / 32 = b.val) (hn : t.val / 4 % 8 = n.val)
    (h3 : t.val % 4 = 3) (p : Fin 1024) (g : Fin 4) (q : Fin 256) :
    accStep (outsAt0 m c (t.val - 1) (Nat.lt_of_le_of_lt (Nat.sub_le _ _) t.isLt)).2.2
        (iblk m c 0 t) (iblk m c 1 t) (iblk m c 2 t) (iblk m c 3 t) (ix2 p (gateCol g q))
      = pre (m ((c : Thread nD τ).loc main_arg0)) (m ((c : Thread nD τ).loc main_arg1)) (m ((c : Thread nD τ).loc main_arg3))
          (m ((c : Thread nD τ).loc main_arg4)) (brow b p) (gcol g (ucol n q)) := by
  have hN : t.val < 128 := lt_of_lt_of_eq t.isLt N_0
  refine (accStep_point m c t b n 3 hb hn h3 _ p g q).trans ?_
  rw [scratch_inv m c (t.val - 1) (Nat.lt_of_le_of_lt (Nat.sub_le _ _) t.isLt) b n (by omega) (by omega) (by omega) p g q,
    show (t.val - 1) % 4 = 2 from by omega]
  show accUpTo _ _ 3 = _
  rw [accUpTo_three]
  show (partN _ _ _ _ (0 : Fin 4).val + partN _ _ _ _ (1 : Fin 4).val + partN _ _ _ _ (2 : Fin 4).val + partN _ _ _ _ (3 : Fin 4).val)
      + (partN _ _ _ _ (0 : Fin 4).val + partN _ _ _ _ (1 : Fin 4).val + partN _ _ _ _ (2 : Fin 4).val + partN _ _ _ _ (3 : Fin 4).val) = _
  simp only [partN_of_lt]
  unfold pre
  rw [prodSum_split, prodSum_split]

/-! ## What a last point writes back -/

/-- A last point writes back its block of the new cell state. -/
theorem flushed_cell (c : Dev nD) (t : Fin cfg0.N) (hf : (cfg0.win 6).flush t = true) :
    (dats m 0 c).flushed 6 t = ((cfg0.win 6).blk t).view.read (Elt Ideal) (cellArr m c) := by
  have h3 : t.val % 4 = 3 := (flush_iff6 t).mp hf
  have h0 : ¬t.val % 4 = 0 := by omega
  have hN : t.val < 128 := lt_of_lt_of_eq t.isLt N_0
  rw [Value.flushed6_C m c t h0 h3,
    cell_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) _ _ _]
  funext j
  obtain ⟨p, q, rfl⟩ : ∃ (p : Fin 1024) (q : Fin 256), j = ix2 p q := ⟨j 0, j 1, eq_ix2 j⟩
  show cellOf _ _ _ _ = cellArr m c (((cfg0.win 6).blk t).view.emb (ix2 p q))
  rw [oblk6_idx t ⟨t.val / 32, by omega⟩ ⟨t.val / 4 % 8, by omega⟩ rfl rfl p q]
  show cellOf _ _ _ _ = cellOf _ _ _ _
  rw [← preact_last m c t ⟨t.val / 32, by omega⟩ ⟨t.val / 4 % 8, by omega⟩ rfl rfl h3 p 0 q,
    ← preact_last m c t ⟨t.val / 32, by omega⟩ ⟨t.val / 4 % 8, by omega⟩ rfl rfl h3 p 1 q,
    ← preact_last m c t ⟨t.val / 32, by omega⟩ ⟨t.val / 4 % 8, by omega⟩ rfl rfl h3 p 2 q,
    ← blk_c m c t ⟨t.val / 32, by omega⟩ ⟨t.val / 4 % 8, by omega⟩ rfl rfl p q]
  rfl

/-- A last point writes back its block of the new hidden state. -/
theorem flushed_hidden (c : Dev nD) (t : Fin cfg0.N) (hf : (cfg0.win 5).flush t = true) :
    (dats m 0 c).flushed 5 t = ((cfg0.win 5).blk t).view.read (Elt Ideal) (hiddenArr m c) := by
  have h3 : t.val % 4 = 3 := (flush_iff5 t).mp hf
  have h0 : ¬t.val % 4 = 0 := by omega
  have hN : t.val < 128 := lt_of_lt_of_eq t.isLt N_0
  rw [Value.flushed5_C m c t h0 h3,
    hidden_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) _ _ _]
  funext j
  obtain ⟨p, q, rfl⟩ : ∃ (p : Fin 1024) (q : Fin 256), j = ix2 p q := ⟨j 0, j 1, eq_ix2 j⟩
  show hiddenOf _ _ _ _ _ = hiddenArr m c (((cfg0.win 5).blk t).view.emb (ix2 p q))
  rw [oblk5_idx t ⟨t.val / 32, by omega⟩ ⟨t.val / 4 % 8, by omega⟩ rfl rfl p q]
  show hiddenOf _ _ _ _ _ = hiddenOf _ _ _ _ _
  rw [← preact_last m c t ⟨t.val / 32, by omega⟩ ⟨t.val / 4 % 8, by omega⟩ rfl rfl h3 p 0 q,
    ← preact_last m c t ⟨t.val / 32, by omega⟩ ⟨t.val / 4 % 8, by omega⟩ rfl rfl h3 p 1 q,
    ← preact_last m c t ⟨t.val / 32, by omega⟩ ⟨t.val / 4 % 8, by omega⟩ rfl rfl h3 p 2 q,
    ← preact_last m c t ⟨t.val / 32, by omega⟩ ⟨t.val / 4 % 8, by omega⟩ rfl rfl h3 p 3 q,
    ← blk_c m c t ⟨t.val / 32, by omega⟩ ⟨t.val / 4 % 8, by omega⟩ rfl rfl p q]
  rfl

/-! ## The blocks of the last points cover both arrays -/

/-- An index of the array is in point `t`'s block of window 5 iff each coordinate is in the block's range on its axis. -/
theorem mem_blk5 (t : Fin cfg0.N) (i : S4096x2048.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v10_0).slice (win0_5.rect t)).set ↔ _
  rw [View.set_slice_whole, Rect.mem_set_unit]
  exact Iff.rfl

/-- Every index of the array is in the block of the last point of its run. -/
theorem cover5 (i : S4096x2048.Idx) : ∃ t : Fin cfg0.N, (cfg0.win 5).flush t = true ∧ i ∈ ((cfg0.win 5).blk t).view.set := by
  have hi0 : (i 0).val < 4096 := (i 0).isLt
  have hi1 : (i 1).val < 2048 := (i 1).isLt
  have hN : cfg0.N = 128 := N_0
  refine ⟨⟨((i 0).val / 1024 * 8 + (i 1).val / 256) * 4 + 3, by rw [hN]; omega⟩, (flush_iff5 _).mpr (by show (((i 0).val / 1024 * 8 + (i 1).val / 256) * 4 + 3) % 4 = 3; omega), ?_⟩
  rw [mem_blk5]
  have hi := idx_facts ⟨((i 0).val / 1024 * 8 + (i 1).val / 256) * 4 + 3, by rw [hN]; omega⟩
  intro a
  match a with
  | ⟨0, _⟩ =>
    show win0_5.index _ (0 : Fin 2) * 1024 ≤ (i 0).val ∧ (i 0).val < win0_5.index _ (0 : Fin 2) * 1024 + 1024
    rw [hi.2.2.2.2.2.2.2.2.2.2.1]
    show (((i 0).val / 1024 * 8 + (i 1).val / 256) * 4 + 3) / 32 * 1024 ≤ (i 0).val ∧ (i 0).val < (((i 0).val / 1024 * 8 + (i 1).val / 256) * 4 + 3) / 32 * 1024 + 1024
    omega
  | ⟨1, _⟩ =>
    show win0_5.index _ (1 : Fin 2) * 256 ≤ (i 1).val ∧ (i 1).val < win0_5.index _ (1 : Fin 2) * 256 + 256
    rw [hi.2.2.2.2.2.2.2.2.2.2.2.1]
    show (((i 0).val / 1024 * 8 + (i 1).val / 256) * 4 + 3) / 4 % 8 * 256 ≤ (i 1).val ∧ (i 1).val < (((i 0).val / 1024 * 8 + (i 1).val / 256) * 4 + 3) / 4 % 8 * 256 + 256
    omega

/-- An index of the array is in point `t`'s block of window 6 iff each coordinate is in the block's range on its axis. -/
theorem mem_blk6 (t : Fin cfg0.N) (i : S4096x2048.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v10_1).slice (win0_6.rect t)).set ↔ _
  rw [View.set_slice_whole, Rect.mem_set_unit]
  exact Iff.rfl

/-- Every index of the array is in the block of the last point of its run. -/
theorem cover6 (i : S4096x2048.Idx) : ∃ t : Fin cfg0.N, (cfg0.win 6).flush t = true ∧ i ∈ ((cfg0.win 6).blk t).view.set := by
  have hi0 : (i 0).val < 4096 := (i 0).isLt
  have hi1 : (i 1).val < 2048 := (i 1).isLt
  have hN : cfg0.N = 128 := N_0
  refine ⟨⟨((i 0).val / 1024 * 8 + (i 1).val / 256) * 4 + 3, by rw [hN]; omega⟩, (flush_iff6 _).mpr (by show (((i 0).val / 1024 * 8 + (i 1).val / 256) * 4 + 3) % 4 = 3; omega), ?_⟩
  rw [mem_blk6]
  have hi := idx_facts ⟨((i 0).val / 1024 * 8 + (i 1).val / 256) * 4 + 3, by rw [hN]; omega⟩
  intro a
  match a with
  | ⟨0, _⟩ =>
    show win0_6.index _ (0 : Fin 2) * 1024 ≤ (i 0).val ∧ (i 0).val < win0_6.index _ (0 : Fin 2) * 1024 + 1024
    rw [hi.2.2.2.2.2.2.2.2.2.2.2.2.1]
    show (((i 0).val / 1024 * 8 + (i 1).val / 256) * 4 + 3) / 32 * 1024 ≤ (i 0).val ∧ (i 0).val < (((i 0).val / 1024 * 8 + (i 1).val / 256) * 4 + 3) / 32 * 1024 + 1024
    omega
  | ⟨1, _⟩ =>
    show win0_6.index _ (1 : Fin 2) * 256 ≤ (i 1).val ∧ (i 1).val < win0_6.index _ (1 : Fin 2) * 256 + 256
    rw [hi.2.2.2.2.2.2.2.2.2.2.2.2.2]
    show (((i 0).val / 1024 * 8 + (i 1).val / 256) * 4 + 3) / 4 % 8 * 256 ≤ (i 1).val ∧ (i 1).val < (((i 0).val / 1024 * 8 + (i 1).val / 256) * 4 + 3) / 4 % 8 * 256 + 256
    omega

/-! ## The arrays after the run, and the run -/

theorem final_hidden (c : Dev nD) : (dats m 0 c).arrAt 5 cfg0.N = hiddenArr m c :=
  (dats m 0 c).arrAt_eq_of_cover 5 (hiddenArr m c) (flushed_hidden m c) (cover5)

theorem final_cell (c : Dev nD) : (dats m 0 c).arrAt 6 cfg0.N = cellArr m c :=
  (dats m 0 c).arrAt_eq_of_cover 6 (cellArr m c) (flushed_cell m c) (cover6)

/-- The run, read: the first result array ends at the new hidden state, the second at the new cell state, of the
    arguments, which end unchanged. -/
theorem run : θ_run defs (onTc (τ := τ) (main (F := Ideal))) ⟨m, fun _ => 0, ρ⟩ fun r => ∀ c : Dev nD,
      r.2.mem ((c : Thread nD τ).loc main_v10_0) = hiddenArr m c
      ∧ r.2.mem ((c : Thread nD τ).loc main_v10_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_hidden m c), (h c).2.1.trans (final_cell m c), (h c).2.2⟩)
    (Value.run_blocks m ρ)

end Cert.KernelIdeal.Cell

end
-- ==== Proof.CellReference.lean ====
/-
  The reference computes the same two functions.

  Its pre-activation array is the sum of two whole matrix products, read at (r, col) as the two sums over the 2048
  features; its four slices of that array are the columns 2048·g + u of gate g; each of its three clipped affine
  maps is the hard sigmoid of a slice, with the same four float words; and its last lines are the cell formula and the
  hidden-state formula of those, in the same order of operands.
-/
import proofs.«145058_j75797582840479_2_alg».proof.Proof.CellSpec
import proofs.«145058_j75797582840479_2_alg».proof.Proof.Gen.ReferenceIdeal.Read

noncomputable section

open Idealize.ShloMosaic Idealize.ShloMosaic.TcCoe Idealize.SL.Sem

namespace Cert.ReferenceIdeal.Cell

open Cert.ReferenceIdeal Cert.ReferenceIdeal.Gen Cert.ReferenceIdeal.Read Idealize.ShloMosaic.ValueIdx Cert.CellSpec

/-- The reference's pre-activation array at (r, col). -/
theorem preact_ref (x0 x1 : (⟨S4096x2048, .f32⟩ : BufTy).Contents (Elt Ideal)) (x3 x4 : (⟨S2048x8192, .f32⟩ : BufTy).Contents (Elt Ideal)) (r : Fin 4096) (col : Fin 8192) :
    val_main_v2 (F := Ideal) x0 x1 x3 x4 (ix2 r col) = pre x0 x1 x3 x4 r col := by
  rw [val_main_v2_apply, val_main_v0_apply, val_main_v1_apply]
  have el0 : ∀ k : Fin 2048, lidx_main_v0 (ix2 r col) k = ix2 r k := fun k => funext fun a => Fin.ext (by
    match a with
    | ⟨0, _⟩ => rfl
    | ⟨1, _⟩ => rfl)
  have er0 : ∀ k : Fin 2048, ridx_main_v0 (ix2 r col) k = ix2 k col := fun k => funext fun a => Fin.ext (by
    match a with
    | ⟨0, _⟩ => rfl
    | ⟨1, _⟩ => rfl)
  have el1 : ∀ k : Fin 2048, lidx_main_v1 (ix2 r col) k = ix2 r k := fun k => funext fun a => Fin.ext (by
    match a with
    | ⟨0, _⟩ => rfl
    | ⟨1, _⟩ => rfl)
  have er1 : ∀ k : Fin 2048, ridx_main_v1 (ix2 r col) k = ix2 k col := fun k => funext fun a => Fin.ext (by
    match a with
    | ⟨0, _⟩ => rfl
    | ⟨1, _⟩ => rfl)
  simp only [el0, er0, el1, er1]
  rfl

/-! ## The four slices are the four gates' columns -/

theorem gate0_ref (x0 x1 : (⟨S4096x2048, .f32⟩ : BufTy).Contents (Elt Ideal)) (x3 x4 : (⟨S2048x8192, .f32⟩ : BufTy).Contents (Elt Ideal)) (i : S4096x2048.Idx) :
    val_main_v3 (F := Ideal) x0 x1 x3 x4 i = pre x0 x1 x3 x4 (i 0) (gcol 0 (i 1)) := by
  rw [val_main_v3_apply]
  have e : idx_main_v3 i = ix2 (i 0) (gcol 0 (i 1)) := funext fun a => Fin.ext (by
    match a with
    | ⟨0, _⟩ => rfl
    | ⟨1, _⟩ => show (i 1).val = 2048 * 0 + (i 1).val; omega)
  rw [e]
  exact preact_ref x0 x1 x3 x4 (i 0) (gcol 0 (i 1))

theorem gate1_ref (x0 x1 : (⟨S4096x2048, .f32⟩ : BufTy).Contents (Elt Ideal)) (x3 x4 : (⟨S2048x8192, .f32⟩ : BufTy).Contents (Elt Ideal)) (i : S4096x2048.Idx) :
    val_main_v4 (F := Ideal) x0 x1 x3 x4 i = pre x0 x1 x3 x4 (i 0) (gcol 1 (i 1)) := by
  rw [val_main_v4_apply]
  have e : idx_main_v4 i = ix2 (i 0) (gcol 1 (i 1)) := funext fun a => Fin.ext (by
    match a with
    | ⟨0, _⟩ => rfl
    | ⟨1, _⟩ => show 2048 + (i 1).val = 2048 * 1 + (i 1).val; omega)
  rw [e]
  exact preact_ref x0 x1 x3 x4 (i 0) (gcol 1 (i 1))

theorem gate2_ref (x0 x1 : (⟨S4096x2048, .f32⟩ : BufTy).Contents (Elt Ideal)) (x3 x4 : (⟨S2048x8192, .f32⟩ : BufTy).Contents (Elt Ideal)) (i : S4096x2048.Idx) :
    val_main_v5 (F := Ideal) x0 x1 x3 x4 i = pre x0 x1 x3 x4 (i 0) (gcol 2 (i 1)) := by
  rw [val_main_v5_apply]
  have e : idx_main_v5 i = ix2 (i 0) (gcol 2 (i 1)) := funext fun a => Fin.ext (by
    match a with
    | ⟨0, _⟩ => rfl
    | ⟨1, _⟩ => show 4096 + (i 1).val = 2048 * 2 + (i 1).val; omega)
  rw [e]
  exact preact_ref x0 x1 x3 x4 (i 0) (gcol 2 (i 1))

theorem gate3_ref (x0 x1 : (⟨S4096x2048, .f32⟩ : BufTy).Contents (Elt Ideal)) (x3 x4 : (⟨S2048x8192, .f32⟩ : BufTy).Contents (Elt Ideal)) (i : S4096x2048.Idx) :
    val_main_v6 (F := Ideal) x0 x1 x3 x4 i = pre x0 x1 x3 x4 (i 0) (gcol 3 (i 1)) := by
  rw [val_main_v6_apply]
  have e : idx_main_v6 i = ix2 (i 0) (gcol 3 (i 1)) := funext fun a => Fin.ext (by
    match a with
    | ⟨0, _⟩ => rfl
    | ⟨1, _⟩ => show 6144 + (i 1).val = 2048 * 3 + (i 1).val; omega)
  rw [e]
  exact preact_ref x0 x1 x3 x4 (i 0) (gcol 3 (i 1))

/-! ## Each clipped affine map is the hard sigmoid of its slice -/

/-- The input gate. -/
theorem hsig_input (x0 x1 : (⟨S4096x2048, .f32⟩ : BufTy).Contents (Elt Ideal)) (x3 x4 : (⟨S2048x8192, .f32⟩ : BufTy).Contents (Elt Ideal)) (i : S4096x2048.Idx) :
    val_main_v11 (F := Ideal) x0 x1 x3 x4 i = hsig (val_main_v3 (F := Ideal) x0 x1 x3 x4 i) := by
  rw [val_main_v11_apply, val_main_call0_v4_apply, val_main_call0_v3_apply, val_main_cst_2_apply,
    val_main_call0_v2_apply, val_main_call0_v1_apply, val_main_call0_v0_apply, val_main_cst_1_apply,
    val_main_v10_apply, val_main_v8_apply, val_main_v7_apply, val_main_cst_apply,
    val_main_v9_apply, val_main_cst_0_apply]
  rfl

/-- The forget gate. -/
theorem hsig_forget (x0 x1 : (⟨S4096x2048, .f32⟩ : BufTy).Contents (Elt Ideal)) (x3 x4 : (⟨S2048x8192, .f32⟩ : BufTy).Contents (Elt Ideal)) (i : S4096x2048.Idx) :
    val_main_v16 (F := Ideal) x0 x1 x3 x4 i = hsig (val_main_v4 (F := Ideal) x0 x1 x3 x4 i) := by
  rw [val_main_v16_apply, val_main_call1_v4_apply, val_main_call1_v3_apply, val_main_cst_6_apply,
    val_main_call1_v2_apply, val_main_call1_v1_apply, val_main_call1_v0_apply, val_main_cst_5_apply,
    val_main_v15_apply, val_main_v13_apply, val_main_v12_apply, val_main_cst_3_apply,
    val_main_v14_apply, val_main_cst_4_apply]
  rfl

/-- The output gate. -/
theorem hsig_output (x0 x1 : (⟨S4096x2048, .f32⟩ : BufTy).Contents (Elt Ideal)) (x3 x4 : (⟨S2048x8192, .f32⟩ : BufTy).Contents (Elt Ideal)) (i : S4096x2048.Idx) :
    val_main_v25 (F := Ideal) x0 x1 x3 x4 i = hsig (val_main_v6 (F := Ideal) x0 x1 x3 x4 i) := by
  rw [val_main_v25_apply, val_main_call2_v4_apply, val_main_call2_v3_apply, val_main_cst_10_apply,
    val_main_call2_v2_apply, val_main_call2_v1_apply, val_main_call2_v0_apply, val_main_cst_9_apply,
    val_main_v24_apply, val_main_v22_apply, val_main_v21_apply, val_main_cst_7_apply,
    val_main_v23_apply, val_main_cst_8_apply]
  rfl

/-! ## The two results -/

/-- The reference's new cell state is `newCell` of the arguments. -/
theorem cell_ref (x0 x1 x2 : (⟨S4096x2048, .f32⟩ : BufTy).Contents (Elt Ideal)) (x3 x4 : (⟨S2048x8192, .f32⟩ : BufTy).Contents (Elt Ideal)) : val_main_v20 (F := Ideal) x0 x1 x2 x3 x4 = newCell x0 x1 x2 x3 x4 := by
  funext i
  rw [val_main_v20_apply, val_main_v17_apply, val_main_v19_apply, val_main_v18_apply,
    hsig_forget, hsig_input, gate0_ref, gate1_ref, gate2_ref]
  rfl

/-- The reference's new hidden state is `newHidden` of the arguments. -/
theorem hidden_ref (x0 x1 x2 : (⟨S4096x2048, .f32⟩ : BufTy).Contents (Elt Ideal)) (x3 x4 : (⟨S2048x8192, .f32⟩ : BufTy).Contents (Elt Ideal)) : val_main_v27 (F := Ideal) x0 x1 x2 x3 x4 = newHidden x0 x1 x2 x3 x4 := by
  funext i
  rw [val_main_v27_apply, val_main_v26_apply, hsig_output, gate3_ref, cell_ref]
  rfl

end Cert.ReferenceIdeal.Cell

end
-- ==== Proof.lean ====
/-
  One step of an LSTM cell: a fused kernel against the plain formula.

  THE TWO PROGRAMS. The reference forms the pre-activations z = x·W + h·R (x the inputs, h the old hidden state, both
  4096 × 2048; W and R 2048 × 8192, their columns gate-major: column 2048·g + u is unit u of gate g), applies the hard
  sigmoid hs z = min 1 (max 0 (0.2·z + 0.5)) to the input, forget and output quarters, and returns
      c' = hs z_f · c + hs z_i · tanh z_c,      h' = hs z_o · tanh c',
  as (h', h', c'). The kernel first regroups the columns of W and R so that every stretch of 1024 columns holds the 256
  columns of the same units for all four gates, and then runs over a 4 × 8 × 4 grid: for each batch block of 1024 rows and
  each block of 256 units it accumulates, over four stretches of 512 features, the products of the input block with its
  weight block and of the hidden-state block with the recurrent weight block, starting from zero; after the fourth
  stretch it reads the four gates' pre-activations off the accumulator's four column blocks and writes the block of c'
  and of h'.

  WHY THEY AGREE over the extended reals, where every operation is exact and a change of float format is the identity.
  (1) Column 1024·n + 256·g + q of a regrouped weight matrix is column 2048·g + 256·n + q of the matrix, so column block g
  of the accumulator of unit block n collects gate g of the units 256·n + q. (2) The accumulator's interleaved partial
  sums, stretch after stretch, add up to the two whole sums over the 2048 features: this uses only that addition of
  extended reals is commutative and associative, so it holds whether or not an entry is finite, and the precondition is
  never opened. (3) The closing arithmetic is the same formula with the same four float words and the same order of
  operands in both programs. (4) Only the last point of each run of four writes its output block back, those blocks tile
  both result arrays, and the argument arrays are never written.

  The frames of the two kernel programs and the reference's run are the generated ones; the idealization rewrote no
  operation, so there is nothing to preserve.
-/
import proofs.«145058_j75797582840479_2_alg».proof.Defs
import proofs.«145058_j75797582840479_2_alg».proof.Proof.CellFinal
import proofs.«145058_j75797582840479_2_alg».proof.Proof.CellReference
import proofs.«145058_j75797582840479_2_alg».proof.Proof.Gen.Kernel
import proofs.«145058_j75797582840479_2_alg».proof.Proof.Gen.Kernel.Skeleton
import proofs.«145058_j75797582840479_2_alg».proof.Proof.Gen.Kernel.Launch
import proofs.«145058_j75797582840479_2_alg».proof.Proof.Gen.Kernel.Points
import proofs.«145058_j75797582840479_2_alg».proof.Proof.Gen.Kernel.Frame
import proofs.«145058_j75797582840479_2_alg».proof.Proof.Gen.KernelIdeal
import proofs.«145058_j75797582840479_2_alg».proof.Proof.Gen.KernelIdeal.Skeleton
import proofs.«145058_j75797582840479_2_alg».proof.Proof.Gen.KernelIdeal.Launch
import proofs.«145058_j75797582840479_2_alg».proof.Proof.Gen.KernelIdeal.Points
import proofs.«145058_j75797582840479_2_alg».proof.Proof.Gen.KernelIdeal.Frame
import proofs.«145058_j75797582840479_2_alg».proof.Proof.Gen.ReferenceIdeal
import proofs.«145058_j75797582840479_2_alg».proof.Proof.Gen.Pre_finite_inputs
import proofs.«145058_j75797582840479_2_alg».proof.Proof.Gen.KernelIdeal.Value
import proofs.«145058_j75797582840479_2_alg».proof.Proof.Gen.ReferenceIdeal.Run
import proofs.«145058_j75797582840479_2_alg».proof.Proof.Gen.ReferenceIdeal.Read
import Idealize.ShloMosaic.Adequacy
import Idealize.ShloMosaic.Init

noncomputable section

namespace Cert.Proof

open Idealize.ShloMosaic Idealize.SL.Sem

/-- The kernel as printed runs, faults nowhere, and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as they were: its run, with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- No operation was rewritten. -/
theorem preserves : Cert.preserves_Kernel_KernelIdeal := trivial

/-- From memories that agree on the five arguments both programs end with the new hidden state twice and the new cell
    state once: the kernel by its run read block by block, the reference by its run read operation by operation. -/
theorem algebraic : Cert.algebraic_KernelIdeal_ReferenceIdeal := by
  intro m ρ m' ρ' _ hagree
  refine ⟨fun c => Cert.KernelIdeal.Cell.hiddenArr m c, fun c => Cert.KernelIdeal.Cell.hiddenArr m c,
    fun c => Cert.KernelIdeal.Cell.cellArr m c, ?_, ?_⟩
  · exact (θ_run Cert.KernelIdeal.defs _ _).mono (fun r h c => ⟨(h c).1, (h c).1, (h c).2.1, (h c).2.2⟩)
      (Cert.KernelIdeal.Cell.run m ρ)
  · refine (θ_run Cert.ReferenceIdeal.defs _ _).mono (fun r h c => ?_) (Cert.ReferenceIdeal.Value.run (F := Ideal) m' ρ')
    obtain ⟨a0, a1, a2, a3, a4⟩ := hagree c
    have eh : r.2.mem ((c.tc : Thread Cert.ReferenceIdeal.nD Cert.ReferenceIdeal.τ).loc Cert.ReferenceIdeal.main_v27)
        = Cert.KernelIdeal.Cell.hiddenArr m c := by
      refine (h c).1.trans ?_
      rw [Cert.ReferenceIdeal.Read.val_main_v27_eq, Cert.ReferenceIdeal.Cell.hidden_ref, a0, a1, a2, a3, a4]
    have ec : r.2.mem ((c.tc : Thread Cert.ReferenceIdeal.nD Cert.ReferenceIdeal.τ).loc Cert.ReferenceIdeal.main_v20)
        = Cert.KernelIdeal.Cell.cellArr m c := by
      refine (h c).2.2.1.trans ?_
      rw [Cert.ReferenceIdeal.Read.val_main_v20_eq, Cert.ReferenceIdeal.Cell.cell_ref, a0, a1, a2, a3, a4]
    exact ⟨eh, eh, ec, (h c).2.2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
